-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S8192x4096, .bf16⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S1x4096, .f32⟩
  | .hbm, ⟨10, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .bf16 = 32 ∨ (Rect.block (s := S8192x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one run of the kernel body leaves behind, as a function of what it found.

  The body keeps a running block "acc" of shape 1024 x 1024 in a scratch buffer.  Writing a for the block of the
  first left operand, a' for the block of the second left operand, w for the block of the right operand and
  b for the 1 x 1024 bias row, a run does, in this order:
    - at the first step along the contraction axis only: acc := 0;
    - acc := acc + a * w^T;        (the product contracts the second axis of both operands)
    - acc := acc + a' * w^T;
    - at the last step along the contraction axis only: out := sgn (acc + b), the bias row repeated down the rows.
  Every store writes the whole block, and every load of acc reads back the store before it, so the block left in
  the scratch is the last update applied to the one before, and so on down to what the run found there (or to the
  zero block at a first step).  The four statements below say exactly this, for the three kinds of step
  (first, middle, last), and for the output block of a last step.  They hold for any arithmetic.
-/
import proofs.«140761_j60455959658598_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offset of a whole-block access. -/
theorem hz : (![0, 0] : Fin 2 → Nat) = fun _ => 0 := funext fun a => by fin_cases a <;> rfl

/-- One update of the running block: first `acc + a * w^T`, then `+ a' * w^T` on top of it. -/
def step (acc : Vec F S1024x1024 .f32) (a a' w : Vec F S1024x1024 .bf16) : Vec F S1024x1024 .f32 :=
  k0_pay3 (k0_pay2 acc a w) a' w

/-- A first step leaves, in the scratch, one update of the zero block. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x1024 .bf16) (x3 : Vec F S1x1024 .f32) :
    sout0_A_0 c i arg3 harg3 arg4 harg4 arg5 harg5 arg6 harg6 arg7 harg7 arg8 harg8 hc0 hc1 x0 x1 x2 x3 = step k0_pay1 x0 x1 x2 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  rw [View.canon_cons_unit_zero (S := S1024x1024) hz]
  sl_unfold_words
  simp only [View.readCov_cons_toLoadRect, View.readAt_eq_ld, harg3.read_unread, harg4.read_unread, harg5.read_unread,
    View.ld_unit_zero (S := S1024x1024) hz]
  rfl

/-- A middle step leaves, in the scratch, one update of what it found there. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x1024 .bf16) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = step xs0 x0 x1 x2 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_cons_unit_zero (S := S1024x1024) hz]
  sl_unfold_words
  simp only [View.readCov_cons_toLoadRect, View.readAt_eq_ld, harg3.read_unread, harg4.read_unread, harg5.read_unread,
    harg8.read_unread, View.ld_unit_zero (S := S1024x1024) hz]
  rfl

/-- A last step leaves the same in the scratch: one update of what it found there. -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x1024 .bf16) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = step xs0 x0 x1 x2 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_cons_unit_zero (S := S1024x1024) hz]
  simp only [View.readCov_cons_toLoadRect, View.readAt_eq_ld, harg3.read_unread, harg4.read_unread, harg5.read_unread,
    harg8.read_unread, View.ld_unit_zero (S := S1024x1024) hz]
  rfl

/-- A last step writes, to the output block, the sign of (the updated running block plus the bias row). -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x1024 .bf16) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay4 (step xs0 x0 x1 x2) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  rw [View.canon_unit_zero (S := S1024x1024) hz]
  sl_unfold_words
  simp only [View.readCov_cons_toLoadRect, View.readAt_eq_ld, harg3.read_unread, harg4.read_unread, harg5.read_unread,
    harg6.read_unread, harg8.read_unread, View.ld_unit_zero (S := S1024x1024) hz, View.ld_unit_zero (S := S1x1024) hz]
  rfl

end Cert.KernelIdeal.Pieces

end
-- ==== Proof.Payload.lean ====
/-
  The body's arithmetic read at one entry, over the extended reals.

  With blocks a, a', w of shape 1024 x 1024, a running block acc and a bias row b of shape 1 x 1024:
    - the zero block is 0 at every entry;
    - the product of a and w contracting the second axis of both, started from zero, is at (p, q) the sum over
      kk < 1024 of a(p, kk) * w(q, kk);
    - one update of acc is at (p, q):  acc(p, q) + sum_kk a(p, kk) * w(q, kk) + sum_kk a'(p, kk) * w(q, kk);
    - the output of a last step is at (p, q):  sgn (acc(p, q) + b(0, q)), the selection form of the sign being the
      sign function at every extended real.
-/
import proofs.«140761_j60455959658598_2_alg».proof.Proof.Pieces
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The zero block is `0` at every entry. -/
theorem zero_apply (j : S1024x1024.Idx) : k0_pay1 (F := Ideal) j = 0 := by
  unfold k0_pay1
  rw [shapeCast_self]
  exact Ideal.ofBits_zero_f32

/-- At output `i` the left operand is read at row `i 0` … -/
theorem lhs0 (i : S1024x1024.Idx) (k : dot_S1024x1024_S1024x1024_S1024x1024_1_1_0_0_n_n.contr.Idx) : (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and at the contraction position along its second axis. -/
theorem lhs1 (i : S1024x1024.Idx) (k : dot_S1024x1024_S1024x1024_S1024x1024_1_1_0_0_n_n.contr.Idx) : (dot_S1024x1024_S1024x1024_S1024x1024_1_1_0_0_n_n.lhsIdx i k 1).val = (k ⟨0, by decide⟩).val :=
  dot_S1024x1024_S1024x1024_S1024x1024_1_1_0_0_n_n.lhsIdx_val_of_single rfl i k
/-- At output `i` the right operand is read at row `i 1` … -/
theorem rhs0 (i : S1024x1024.Idx) (k : dot_S1024x1024_S1024x1024_S1024x1024_1_1_0_0_n_n.contr.Idx) : (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and at the contraction position along its second axis. -/
theorem rhs1 (i : S1024x1024.Idx) (k : dot_S1024x1024_S1024x1024_S1024x1024_1_1_0_0_n_n.contr.Idx) : (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The product of two blocks contracting their second axes, started from zero, at `(p, q)`. -/
theorem dot_apply (a w : FVec Ideal S1024x1024 .bf16) (p q : Fin 1024) :
    FloatOps.matmul dot_S1024x1024_S1024x1024_S1024x1024_1_1_0_0_n_n none a w (constant (F := Ideal) S1024x1024 .f32 0x00000000#32) (ix2 p q)
      = ∑ kk : Fin 1024, a (ix2 p kk) * w (ix2 q kk) := by
  rw [Ideal.matmul_constant_zero_apply, ← Equiv.sum_comp (contrEquiv1 dot_S1024x1024_S1024x1024_S1024x1024_1_1_0_0_n_n 1024 rfl rfl).symm]
  refine Finset.sum_congr rfl fun kk _ => ?_
  have hk := contrEquiv1_symm_val dot_S1024x1024_S1024x1024_S1024x1024_1_1_0_0_n_n 1024 rfl rfl kk
  have el : dot_S1024x1024_S1024x1024_S1024x1024_1_1_0_0_n_n.lhsIdx (ix2 p q) ((contrEquiv1 dot_S1024x1024_S1024x1024_S1024x1024_1_1_0_0_n_n 1024 rfl rfl).symm kk) = ix2 p kk := funext fun a => Fin.ext (by
    match a with
    | ⟨0, _⟩ => exact lhs0 _ _
    | ⟨1, _⟩ => exact (lhs1 _ _).trans hk)
  have er : dot_S1024x1024_S1024x1024_S1024x1024_1_1_0_0_n_n.rhsIdx (ix2 p q) ((contrEquiv1 dot_S1024x1024_S1024x1024_S1024x1024_1_1_0_0_n_n 1024 rfl rfl).symm kk) = ix2 q kk := funext fun a => Fin.ext (by
    match a with
    | ⟨0, _⟩ => exact rhs0 _ _
    | ⟨1, _⟩ => exact (rhs1 _ _).trans hk)
  rw [el, er]

/-- One update of the running block, at `(p, q)`. -/
theorem step_apply (acc : Vec Ideal S1024x1024 .f32) (a a' w : Vec Ideal S1024x1024 .bf16) (p q : Fin 1024) :
    Pieces.step (F := Ideal) acc a a' w (ix2 p q)
      = acc (ix2 p q) + (∑ kk : Fin 1024, a (ix2 p kk) * w (ix2 q kk)) + ∑ kk : Fin 1024, a' (ix2 p kk) * w (ix2 q kk) := by
  unfold Pieces.step k0_pay3 k0_pay2
  dsimp only
  simp only [shapeCast_self]
  show (acc (ix2 p q) + FloatOps.matmul dot_S1024x1024_S1024x1024_S1024x1024_1_1_0_0_n_n none (φ₁ := .bf16) (φ₂ := .bf16) a w (constant (F := Ideal) S1024x1024 .f32 0x00000000#32) (ix2 p q))
      + FloatOps.matmul dot_S1024x1024_S1024x1024_S1024x1024_1_1_0_0_n_n none (φ₁ := .bf16) (φ₂ := .bf16) a' w (constant (F := Ideal) S1024x1024 .f32 0x00000000#32) (ix2 p q) = _
  rw [dot_apply, dot_apply]

/-- The output of a last step, at `(p, q)`: the sign of the running block's entry plus the bias of column `q`. -/
theorem out_apply (acc : Vec Ideal S1024x1024 .f32) (b : Vec Ideal S1x1024 .f32) (p q : Fin 1024) :
    k0_pay4 (F := Ideal) acc b (ix2 p q) = Ideal.sign (acc (ix2 p q) + b (ix2 ⟨0, Nat.one_pos⟩ q)) := by
  unfold k0_pay4
  refine (Ideal.jnp_sign_eq_sign_f32 _).trans ?_
  refine congrArg Ideal.sign ?_
  show acc (ix2 p q) + broadcastTo S1024x1024 (shapeCast S1x1024 b shapeCasts_S1x1024_S1x1024) broadcasts_S1x1024_S1024x1024 (ix2 p q) = _
  rw [shapeCast_self]
  refine congrArg (acc (ix2 p q) + ·) ?_
  exact broadcastTo_apply b broadcasts_S1x1024_S1024x1024 (ix2 p q) (ix2 ⟨0, Nat.one_pos⟩ q) (fun a => match a with
    | ⟨0, _⟩ => by show (0 : ℕ) = if (1 : ℕ) = 1 then 0 else _; rw [if_pos rfl]
    | ⟨1, _⟩ => by show q.val = if (1024 : ℕ) = 1 then 0 else q.val; rw [if_neg (by decide)])

end Cert.KernelIdeal.Payload

end
-- ==== Proof.Spec.lean ====
/-
  The result as one function of the argument arrays, and the arithmetic of summing a long axis block by block.

  For x of shape 8192 x 4096, w of shape 4096 x 4096 and b of length 4096, the result at (n, o) is
      sgn ( (sum over k < 4096 of  x(n, k) * sgn (w(o, k)))  +  b(o) ).
  The contraction axis of length 4096 is walked in four blocks of 1024: index k is (block kb, offset kk) with
  k = 1024 * kb + kk.  Summing block after block gives partial sums; the partial sum after the last block is the
  whole sum.  Addition of extended reals is commutative and associative, so none of this needs finiteness.
-/
import Idealize.ShloMosaic.PureOps.Ideal
import Idealize.ShloMosaic.Lib.ValueIdx

noncomputable section

namespace Cert.Spec

open Idealize.ShloMosaic Idealize.ShloMosaic.ValueIdx

/-- Position `1024 * kb + kk` on the contraction axis: offset `kk` inside block `kb`. -/
def kidx (kb : Fin 4) (kk : Fin 1024) : Fin 4096 := ⟨kb.val * 1024 + kk.val, by have := kb.isLt; have := kk.isLt; omega⟩

/-- Row `1024 * i + p` of the 8192 rows: row `p` of row block `i`. -/
def ridx (i : Fin 8) (p : Fin 1024) : Fin 8192 := ⟨i.val * 1024 + p.val, by have := i.isLt; have := p.isLt; omega⟩

/-- Column `1024 * j + q` of the 4096 columns: column `q` of column block `j`. -/
def cidx (j : Fin 4) (q : Fin 1024) : Fin 4096 := ⟨j.val * 1024 + q.val, by have := j.isLt; have := q.isLt; omega⟩

/-- The term summed along the contraction axis for the entry (n, o): `x(n, k) * sgn (w(o, k))`. -/
def term (x : (⟨2, ![8192, 4096]⟩ : Shape).Idx → EReal) (w : (⟨2, ![4096, 4096]⟩ : Shape).Idx → EReal)
    (n : Fin 8192) (o : Fin 4096) (k : Fin 4096) : EReal :=
  x (ix2 n k) * Ideal.sign (w (ix2 o k))

/-- The result array: `sgn (sum_k x(n, k) * sgn (w(o, k)) + b(o))` at `(n, o)`. -/
def G (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => Ideal.sign ((∑ k : Fin 4096, term x w (i 0) (i 1) k) + b (ix1 (i 1)))

/-- The pair (block, offset) and the position on the axis are the same data. -/
def blockEquiv : Fin 4 × Fin 1024 ≃ Fin 4096 where
  toFun p := kidx p.1 p.2
  invFun k := (⟨k.val / 1024, by have := k.isLt; omega⟩, ⟨k.val % 1024, Nat.mod_lt _ (by norm_num)⟩)
  left_inv p := by
    obtain ⟨a, b⟩ := p
    have := a.isLt; have := b.isLt
    apply Prod.ext <;> apply Fin.ext <;> simp only [kidx] <;> omega
  right_inv k := by
    apply Fin.ext; simp only [kidx]; omega

/-- Summing block by block is summing the whole axis. -/
theorem sum_blocks (f : Fin 4096 → EReal) : ∑ kb : Fin 4, ∑ kk : Fin 1024, f (kidx kb kk) = ∑ k : Fin 4096, f k := by
  rw [← Fintype.sum_prod_type']
  exact Fintype.sum_equiv blockEquiv _ _ (fun _ => rfl)

/-- The partial sum over the blocks `0 … k`. -/
def upto (S : Fin 4 → EReal) (k : ℕ) : EReal := ∑ kb : Fin 4, if kb.val ≤ k then S kb else 0

theorem upto_zero (S : Fin 4 → EReal) : upto S 0 = S 0 := by
  simp [upto, Fin.sum_univ_four]

theorem upto_succ (S : Fin 4 → EReal) (k : ℕ) (hk : k + 1 < 4) : upto S (k + 1) = upto S k + S ⟨k + 1, hk⟩ := by
  have h3 : k = 0 ∨ k = 1 ∨ k = 2 := by omega
  rcases h3 with rfl | rfl | rfl <;> simp [upto, Fin.sum_univ_four] <;> rfl

theorem upto_three (S : Fin 4 → EReal) : upto S 3 = ∑ kb : Fin 4, S kb := by
  unfold upto
  refine Finset.sum_congr rfl fun kb _ => ?_
  rw [if_pos (by have := kb.isLt; omega)]

end Cert.Spec

end
-- ==== Proof.Blocks.lean ====
/-
  What the kernel's windows show at a grid point, as entries of the argument arrays.

  The grid has 8 x 4 x 4 = 128 points; point t is (row block i, column block j, contraction step kb) with
  i = t / 16, j = (t / 4) mod 4, kb = t mod 4.  At point t the four input windows show 1024-wide blocks:
    - the first left operand: rows of row block i, contraction positions of block kb, of the array x;
    - the second left operand: the same block of the array x - x;
    - the right operand: rows of column block j, contraction positions of block kb, of the array sgn w;
    - the bias: the 1 x 1024 piece for column block j of the bias laid out as one row.
  (Changing a number's format is the identity on extended reals, which is why the first array is x itself and the
  second is x - x.)
-/
import proofs.«140761_j60455959658598_2_alg».proof.Proof.Payload
import proofs.«140761_j60455959658598_2_alg».proof.Proof.Spec
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo Cert.Spec

variable (m : (ℓ : Loc nD τ sig) → Buf (Elt Ideal) ℓ)

theorem hN : cfg0.N = 128 := N_0

/-- The row block of a grid point. -/
def rowOf (t : Fin cfg0.N) : Fin 8 := ⟨t.val / 16, by have := t.isLt; have := hN; omega⟩
/-- The column block of a grid point. -/
def colOf (t : Fin cfg0.N) : Fin 4 := ⟨t.val / 4 % 4, Nat.mod_lt _ (by norm_num)⟩
/-- The contraction step of a grid point. -/
def stepOf (t : Fin cfg0.N) : Fin 4 := ⟨t.val % 4, Nat.mod_lt _ (by norm_num)⟩

/-- Which block each window shows at each point, decided over the 128 points. -/
theorem idx_facts : ∀ t : Fin cfg0.N,
    win0_0.index t (0 : Fin 2) = t.val / 16 ∧ win0_0.index t (1 : Fin 2) = t.val % 4
    ∧ win0_1.index t (0 : Fin 2) = t.val / 16 ∧ win0_1.index t (1 : Fin 2) = t.val % 4
    ∧ win0_2.index t (0 : Fin 2) = t.val / 4 % 4 ∧ win0_2.index t (1 : Fin 2) = t.val % 4
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-! ## The argument arrays, and the arrays the windows show as functions of them -/

/-- The argument `x` on core `c`. -/
def X (c : Dev nD) : S8192x4096.Idx → EReal := m ((c : Thread nD τ).loc main_arg0)
/-- The argument `w` on core `c`. -/
def W (c : Dev nD) : S4096x4096.Idx → EReal := m ((c : Thread nD τ).loc main_arg1)
/-- The argument `b` on core `c`. -/
def B (c : Dev nD) : S4096.Idx → EReal := m ((c : Thread nD τ).loc main_arg2)

/-- The first left operand's array is `x`. -/
theorem arr_hi (c : Dev nD) (i : S8192x4096.Idx) :
    (V m c main_v2 : S8192x4096.Idx → EReal) i = X m c i := by
  have e : (V m c main_v2 : S8192x4096.Idx → EReal)
      = truncf (F := Ideal) (s := S8192x4096) (φ := .f32) .bf16 (X m c) bitsLt_bf16_f32 := by
    dsimp only [V, hostOps0]; after_results; rfl
  exact congrFun e i

/-- The second left operand's array is `x - x`. -/
theorem arr_lo (c : Dev nD) (i : S8192x4096.Idx) :
    (V m c main_v5 : S8192x4096.Idx → EReal) i = X m c i - X m c i := by
  have e : (V m c main_v5 : S8192x4096.Idx → EReal)
      = truncf (F := Ideal) (s := S8192x4096) (φ := .f32) .bf16 (subf (F := Ideal) (s := S8192x4096) (φ := .f32) (X m c)
          (extf (F := Ideal) (s := S8192x4096) (φ := .bf16) .f32
            (truncf (F := Ideal) (s := S8192x4096) (φ := .f32) .bf16 (X m c) bitsLt_bf16_f32) bitsLt_bf16_f32)) bitsLt_bf16_f32 := by
    dsimp only [V, hostOps0]; after_results; rfl
  exact congrFun e i

/-- The right operand's array is `sgn w`. -/
theorem arr_w (c : Dev nD) (i : S4096x4096.Idx) :
    (V m c main_v1 : S4096x4096.Idx → EReal) i = Ideal.sign (W m c i) := by
  have e : (V m c main_v1 : S4096x4096.Idx → EReal)
      = truncf (F := Ideal) (s := S4096x4096) (φ := .f32) .bf16 (Host.sign (F := Ideal) (s := S4096x4096) (φ := .f32) (W m c)) bitsLt_bf16_f32 := by
    dsimp only [V, hostOps0]; after_results; rfl
  exact congrFun e i

/-- The bias window's array is the bias laid out as one row. -/
theorem arr_b (c : Dev nD) (o : Fin 4096) :
    (V m c main_v6 : S1x4096.Idx → EReal) (ix2 ⟨0, Nat.one_pos⟩ o) = B m c (ix1 o) := by
  have e : (V m c main_v6 : S1x4096.Idx → EReal)
      = shapeCast S1x4096 (B m c) shapeCasts_S4096_S1x4096 := by
    dsimp only [V, hostOps0]; after_results; rfl
  rw [e]
  refine shapeCast_apply _ _ _ (ix1 o) ?_
  rw [Shape.rowMajor_val_one, Shape.rowMajor_val_two]
  show o.val = 0 * 4096 + o.val
  omega

/-! ## The blocks at a point -/

/-- The first left operand's block: entry `(p, kk)` is `x` at row `p` of the row block, position `kk` of the step's block. -/
theorem blk_hi (c : Dev nD) (t : Fin cfg0.N) (p kk : Fin 1024) :
    (iblk m c 0 t : Vec Ideal S1024x1024 .bf16) (ix2 p kk)
      = X m c (ix2 (ridx (rowOf t) p) (kidx (stepOf t) kk)) := by
  obtain ⟨e0, e1, -⟩ := idx_facts t
  show (V m c main_v2 : S8192x4096.Idx → EReal) (((cfg0.win 0).blk t).view.emb (ix2 p kk)) = _
  rw [arr_hi]
  refine congrArg _ (funext fun a => Fin.ext ?_)
  match a with
  | ⟨0, _⟩ => show win0_0.index t (0 : Fin 2) * 1024 + 1 * p.val = t.val / 16 * 1024 + p.val; omega
  | ⟨1, _⟩ => show win0_0.index t (1 : Fin 2) * 1024 + 1 * kk.val = t.val % 4 * 1024 + kk.val; omega

/-- The second left operand's block: the same entries of `x - x`. -/
theorem blk_lo (c : Dev nD) (t : Fin cfg0.N) (p kk : Fin 1024) :
    (iblk m c 1 t : Vec Ideal S1024x1024 .bf16) (ix2 p kk)
      = X m c (ix2 (ridx (rowOf t) p) (kidx (stepOf t) kk))
        - X m c (ix2 (ridx (rowOf t) p) (kidx (stepOf t) kk)) := by
  obtain ⟨-, -, e0, e1, -⟩ := idx_facts t
  show (V m c main_v5 : S8192x4096.Idx → EReal) (((cfg0.win 1).blk t).view.emb (ix2 p kk)) = _
  rw [arr_lo]
  have hi : ((cfg0.win 1).blk t).view.emb (ix2 p kk) = ix2 (ridx (rowOf t) p) (kidx (stepOf t) kk) := by
    refine funext fun a => Fin.ext ?_
    match a with
    | ⟨0, _⟩ => show win0_1.index t (0 : Fin 2) * 1024 + 1 * p.val = t.val / 16 * 1024 + p.val; omega
    | ⟨1, _⟩ => show win0_1.index t (1 : Fin 2) * 1024 + 1 * kk.val = t.val % 4 * 1024 + kk.val; omega
  rw [hi]

/-- The right operand's block: entry `(q, kk)` is `sgn w` at row `q` of the column block, position `kk` of the step's block. -/
theorem blk_w (c : Dev nD) (t : Fin cfg0.N) (q kk : Fin 1024) :
    (iblk m c 2 t : Vec Ideal S1024x1024 .bf16) (ix2 q kk)
      = Ideal.sign (W m c (ix2 (cidx (colOf t) q) (kidx (stepOf t) kk))) := by
  obtain ⟨-, -, -, -, e0, e1, -⟩ := idx_facts t
  show (V m c main_v1 : S4096x4096.Idx → EReal) (((cfg0.win 2).blk t).view.emb (ix2 q kk)) = _
  rw [arr_w]
  refine congrArg (fun j => Ideal.sign (W m c j)) (funext fun a => Fin.ext ?_)
  match a with
  | ⟨0, _⟩ => show win0_2.index t (0 : Fin 2) * 1024 + 1 * q.val = t.val / 4 % 4 * 1024 + q.val; omega
  | ⟨1, _⟩ => show win0_2.index t (1 : Fin 2) * 1024 + 1 * kk.val = t.val % 4 * 1024 + kk.val; omega

/-- The bias block: entry `(0, q)` is the bias of column `q` of the column block. -/
theorem blk_b (c : Dev nD) (t : Fin cfg0.N) (q : Fin 1024) :
    (iblk m c 3 t : Vec Ideal S1x1024 .f32) (ix2 ⟨0, Nat.one_pos⟩ q)
      = B m c (ix1 (cidx (colOf t) q)) := by
  obtain ⟨-, -, -, -, -, -, e0, e1, -⟩ := idx_facts t
  show (V m c main_v6 : S1x4096.Idx → EReal) (((cfg0.win 3).blk t).view.emb (ix2 ⟨0, Nat.one_pos⟩ q)) = _
  rw [← arr_b m c]
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = t.val / 4 % 4 * 1024 + q.val; omega

end Cert.KernelIdeal.Blocks

end
-- ==== Proof.Scratch.lean ====
/-
  The running block, point by point: after contraction step kb it holds the partial sum over blocks 0 … kb.

  Fix an output block (row block i, column block j) and an entry (p, q) of it.  Write S(kb) for the sum, over the
  1024 positions of contraction block kb, of x(row, k) * sgn w(col, k).  At the point (i, j, kb):
    - the first product adds S(kb), because the first left operand shows x and the right operand shows sgn w;
    - the second product adds a sum of terms (x - x) * sgn w, each of which is 0 * sgn w = 0 since x is finite;
    - at kb = 0 the running block starts from 0, otherwise from what the point (i, j, kb - 1) left.
  So by induction on the point the running block holds S(0) + … + S(kb).  The points (i, j, 0 … 3) are consecutive
  (t = 16 i + 4 j + kb), so while kb ≠ 0 the point before has the same i and j.
-/
import proofs.«140761_j60455959658598_2_alg».proof.Proof.Blocks

set_option maxRecDepth 16384

noncomputable section

namespace Cert.KernelIdeal.Scratch

open Cert.KernelIdeal Cert.KernelIdeal.Gen Idealize.ShloMosaic Idealize.ShloMosaic.TcCoe Idealize.ShloMosaic.ValueIdx
open Idealize.SL.Sem Cert.Spec Cert.KernelIdeal.Blocks

variable (m : (ℓ : Loc nD τ sig) → Buf (Elt Ideal) ℓ)

/-- `S(kb)` for entry `(p, q)` of the output block of point `t`: the terms of contraction block `kb`, summed. -/
def blockSum (c : Dev nD) (t : Fin cfg0.N) (p q : Fin 1024) (kb : Fin 4) : EReal :=
  ∑ kk : Fin 1024, term (X m c) (W m c) (ridx (rowOf t) p) (cidx (colOf t) q) (kidx kb kk)

/-- One update at point `t` adds `S(step of t)`: the second product contributes nothing when `x - x = 0`. -/
theorem step_blocks (c : Dev nD) (hx : ∀ i, X m c i - X m c i = 0) (t : Fin cfg0.N)
    (acc : Vec Ideal S1024x1024 .f32) (p q : Fin 1024) :
    Pieces.step (F := Ideal) acc (iblk m c 0 t) (iblk m c 1 t) (iblk m c 2 t) (ix2 p q)
      = acc (ix2 p q) + blockSum m c t p q (stepOf t) := by
  refine (Payload.step_apply acc (iblk m c 0 t) (iblk m c 1 t) (iblk m c 2 t) p q).trans ?_
  have key : ∀ (a a' w : Vec Ideal S1024x1024 .bf16) (s : EReal),
      (∑ kk : Fin 1024, a (ix2 p kk) * w (ix2 q kk)) = s → (∀ kk : Fin 1024, a' (ix2 p kk) * w (ix2 q kk) = 0) →
      acc (ix2 p q) + (∑ kk : Fin 1024, a (ix2 p kk) * w (ix2 q kk)) + ∑ kk : Fin 1024, a' (ix2 p kk) * w (ix2 q kk)
        = acc (ix2 p q) + s := by
    intro a a' w s h1 h2
    rw [h1, Finset.sum_eq_zero (fun kk _ => h2 kk), add_zero]
  refine key (iblk m c 0 t) (iblk m c 1 t) (iblk m c 2 t) _ ?_ ?_
  · exact Finset.sum_congr rfl fun kk _ => by rw [blk_hi, blk_w]; rfl
  · intro kk
    rw [blk_lo, hx, zero_mul]

/-- At a first step the running block ends at `S(step)`. -/
theorem first_eq (c : Dev nD) (hx : ∀ i, X m c i - X m c i = 0) (t : Fin cfg0.N) (h0 : t.val % 4 = 0) (p q : Fin 1024) :
    (outsAt0 m c t.val t.isLt).2 (ix2 p q) = blockSum m c t p q (stepOf t) := by
  have h1 : ¬t.val % 4 = 3 := by omega
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  refine (step_blocks m c hx t _ p q).trans ?_
  rw [Payload.zero_apply, zero_add]

/-- At a later step the running block ends at what the point before left, plus `S(step)`. -/
theorem next_eq (c : Dev nD) (hx : ∀ i, X m c i - X m c i = 0) (t : Fin cfg0.N) (h0 : ¬t.val % 4 = 0) (p q : Fin 1024) :
    (outsAt0 m c t.val t.isLt).2 (ix2 p q) = (outsAt0 m c (t.val - 1) (Nat.lt_of_le_of_lt (Nat.sub_le _ _) t.isLt)).2 (ix2 p q) + blockSum m c t p q (stepOf t) := by
  by_cases h1 : t.val % 4 = 3
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
    exact step_blocks m c hx t _ p q
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
    exact step_blocks m c hx t _ p q

/-- After point `n` the running block holds the partial sum over the blocks `0 … n mod 4`. -/
theorem scratch_eq (c : Dev nD) (hx : ∀ i, X m c i - X m c i = 0) :
    ∀ (n : ℕ) (h : n < cfg0.N) (p q : Fin 1024),
      (outsAt0 m c n h).2 (ix2 p q) = upto (blockSum m c ⟨n, h⟩ p q) (n % 4)
  | 0, h, p, q => by
    refine (first_eq m c hx ⟨0, h⟩ rfl p q).trans ?_
    rw [show (0 % 4 : ℕ) = 0 from rfl, upto_zero]
    rfl
  | n + 1, h, p, q => by
    by_cases h0 : (n + 1) % 4 = 0
    · refine (first_eq m c hx ⟨n + 1, h⟩ h0 p q).trans ?_
      rw [h0, upto_zero]
      exact congrArg _ (Fin.ext h0)
    · refine (next_eq m c hx ⟨n + 1, h⟩ h0 p q).trans ?_
      have ih := scratch_eq c hx n (Nat.lt_of_succ_lt h) p q
      show (outsAt0 m c n _).2 (ix2 p q) + _ = _
      rw [ih]
      have hN := hN
      have hr : rowOf ⟨n, Nat.lt_of_succ_lt h⟩ = rowOf ⟨n + 1, h⟩ := Fin.ext (by simp only [rowOf]; omega)
      have hc : colOf ⟨n, Nat.lt_of_succ_lt h⟩ = colOf ⟨n + 1, h⟩ := Fin.ext (by simp only [colOf]; omega)
      have hb : blockSum m c ⟨n, Nat.lt_of_succ_lt h⟩ p q = blockSum m c ⟨n + 1, h⟩ p q := by
        funext kb; unfold blockSum; rw [hr, hc]
      have hk : (n + 1) % 4 = n % 4 + 1 := by omega
      have hs : stepOf ⟨n + 1, h⟩ = ⟨n % 4 + 1, by omega⟩ := Fin.ext hk
      rw [hb, hs, hk]
      exact (upto_succ _ (n % 4) (by omega)).symm

end Cert.KernelIdeal.Scratch

end
-- ==== Proof.Final.lean ====
/-
  The kernel's result array is the specification.

  The output block (i, j) is written back once, at the last contraction step (kb = 3).  There the running block holds
  S(0) + S(1) + S(2) + S(3), which is the sum over all 4096 contraction positions, and the body writes
  sgn (that sum + bias of the column): the specification's entry (1024 i + p, 1024 j + q).  The 8 x 4 output blocks
  tile the 8192 x 4096 array, so every entry is written, by the point 16 i + 4 j + 3 of its block.
-/
import proofs.«140761_j60455959658598_2_alg».proof.Proof.Scratch
import proofs.«140761_j60455959658598_2_alg».proof.Proof.Gen.KernelIdeal.Value

set_option maxRecDepth 16384

noncomputable section

namespace Cert.KernelIdeal.Final

open Cert.KernelIdeal Cert.KernelIdeal.Gen Idealize.ShloMosaic Idealize.ShloMosaic.TcCoe Idealize.ShloMosaic.ValueIdx
open Idealize.SL.Sem Cert.Spec Cert.KernelIdeal.Blocks Cert.KernelIdeal.Scratch
open Idealize.ShloMosaic.Pipeline (Dat)

variable (m : (ℓ : Loc nD τ sig) → Buf (Elt Ideal) ℓ) (ρ : Dev nD → PrngReg)

/-- At a last step the output block's entry `(p, q)` is the specification at row `p` of the row block, column `q` of the column block. -/
theorem out_eq (c : Dev nD) (hx : ∀ i, X m c i - X m c i = 0) (t : Fin cfg0.N) (h3 : t.val % 4 = 3) (p q : Fin 1024) :
    (outsAt0 m c t.val t.isLt).1 (ix2 p q)
      = G (X m c) (W m c) (B m c) (ix2 (ridx (rowOf t) p) (cidx (colOf t) q)) := by
  have h0 : ¬t.val % 4 = 0 := by omega
  have hs : Pieces.step (F := Ideal) (outsAt0 m c (t.val - 1) (Nat.lt_of_le_of_lt (Nat.sub_le _ _) t.isLt)).2 (iblk m c 0 t) (iblk m c 1 t) (iblk m c 2 t) (ix2 p q)
      = ∑ k : Fin 4096, term (X m c) (W m c) (ridx (rowOf t) p) (cidx (colOf t) q) k := by
    have h := scratch_eq m c hx t.val t.isLt p q
    rw [outsAt0_C m c t h0 h3] at h
    dsimp only at h
    refine ((congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2) (ix2 p q)).symm.trans h).trans ?_
    rw [h3, upto_three]
    exact sum_blocks (fun k => term (X m c) (W m c) (ridx (rowOf t) p) (cidx (colOf t) q) k)
  rw [outsAt0_C m c t h0 h3]
  dsimp only
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2) (ix2 p q)).trans ?_
  refine (Payload.out_apply _ (iblk m c 3 t) p q).trans ?_
  rw [hs, blk_b]
  rfl

/-- What a flushing point writes back is its block of the specification. -/
theorem flushed_eq (c : Dev nD) (hx : ∀ i, X m c i - X m c i = 0) (t : Fin cfg0.N) (hf : (cfg0.win 4).flush t = true) :
    (dats m 0 c).flushed 4 t = ((cfg0.win 4).blk t).view.read (Elt Ideal) (G (X m c) (W m c) (B m c)) := by
  have h3 : t.val % 4 = 3 := (flush0_4 t).mp hf
  obtain ⟨-, -, -, -, -, -, -, -, e0, e1⟩ := idx_facts t
  rw [Value.flushed4]
  funext j
  show (outsAt0 m c t.val t.isLt).1 j = G (X m c) (W m c) (B m c) (((cfg0.win 4).blk t).view.emb j)
  obtain ⟨p, q, rfl⟩ : ∃ (p q : Fin 1024), j = ix2 p q := ⟨j 0, j 1, eq_ix2 j⟩
  rw [out_eq m c hx t h3]
  refine congrArg _ (funext fun a => Fin.ext ?_)
  match a with
  | ⟨0, _⟩ => show t.val / 16 * 1024 + p.val = win0_4.index t (0 : Fin 2) * 1024 + 1 * p.val; omega
  | ⟨1, _⟩ => show t.val / 4 % 4 * 1024 + q.val = win0_4.index t (1 : Fin 2) * 1024 + 1 * q.val; omega

/-- An entry of the array lies in point `t`'s output block iff each coordinate lies in the block's range. -/
theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- Every entry lies in the output block of a flushing point: the last step of its block. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN := hN
  let t : Fin cfg0.N := ⟨(i 0).val / 1024 * 16 + (i 1).val / 1024 * 4 + 3, by omega⟩
  have ht : t.val = (i 0).val / 1024 * 16 + (i 1).val / 1024 * 4 + 3 := rfl
  obtain ⟨-, -, -, -, -, -, -, -, e0, e1⟩ := idx_facts t
  refine ⟨t, (flush0_4 t).mpr (by omega), ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run is the specification of the arguments. -/
theorem final (c : Dev nD) (hx : ∀ i, X m c i - X m c i = 0) :
    (dats m 0 c).arrAt 4 cfg0.N = G (X m c) (W m c) (B m c) :=
  (dats m 0 c).arrAt_eq_of_cover 4 (G (X m c) (W m c) (B m c)) (fun t hf => flushed_eq m c hx t hf) cover

/-- The kernel's run: it terminates with the result array at the specification, the arguments unchanged. -/
theorem run (hx : ∀ c i, X m c i - X m c i = 0) :
    θ_run defs (onTc (τ := τ) (main (F := Ideal))) ⟨m, fun _ => 0, ρ⟩ fun r => ∀ c : Dev nD,
      r.2.mem ((c : Thread nD τ).loc main_v7) = G (X m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hx c)), (h c).2⟩) (Value.run_blocks m ρ)

end Cert.KernelIdeal.Final

end
-- ==== Proof.RefSpec.lean ====
/-
  The reference computes the specification.

  The reference is sgn (x . (sgn w)^T + b): a sign of w, one product contracting the second axis of both operands
  over all 4096 positions, the bias repeated down the rows, a sum and a sign.  Read at (n, o) it is
  sgn (sum_k x(n, k) * sgn (w(o, k)) + b(o)), the specification's entry.
-/
import proofs.«140761_j60455959658598_2_alg».proof.Proof.Gen.ReferenceIdeal.Read
import proofs.«140761_j60455959658598_2_alg».proof.Proof.Spec

noncomputable section

namespace Cert.ReferenceIdeal.RefValue

open Cert.ReferenceIdeal Cert.ReferenceIdeal.Read Idealize.ShloMosaic Idealize.ShloMosaic.ValueIdx Cert.Spec

/-- The reference's result, as a function of the three arguments, is the specification. -/
theorem ref_eq (x : S8192x4096.Idx → EReal) (w : S4096x4096.Idx → EReal) (b : S4096.Idx → EReal) :
    val_main_v5 (F := Ideal) x w b = G x w b := by
  funext i
  have el : ∀ k : Fin 4096, lidx_main_v1 i k = ix2 (i 0) k := fun k =>
    funext fun a => Fin.ext (by match a with | ⟨0, _⟩ => rfl | ⟨1, _⟩ => rfl)
  have er : ∀ k : Fin 4096, ridx_main_v1 i k = ix2 (i 1) k := fun k =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v5_apply, val_main_v4_apply, val_main_v1_apply, val_main_v3_apply, val_main_v2_apply]
  simp only [val_main_v0_apply, el, er, eb, Ideal.hostUnary_sign_def, Ideal.addf_def]
  rfl

end Cert.ReferenceIdeal.RefValue

end
-- ==== Proof.Finite.lean ====
/-
  What the precondition gives: every entry of x is a real number, so x - x = 0 entrywise.

  The precondition is the conjunction of three "all entries satisfy |.| < +inf" tests, one per argument.  Only the
  first is used: an extended real a with max a (-a) < +inf is neither +inf nor -inf, hence a real r, and r - r = 0.
  (At the infinities the difference is not 0, which is exactly why the hypothesis is needed.)
-/
import proofs.«140761_j60455959658598_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

variable [Facts]

/-- The scalar shape has one index. -/
instance : Subsingleton S_.Idx := ⟨fun a b => funext fun d => d.elim0⟩

/-- The word `0x7F800000` denotes `+inf`. -/
theorem inf_word : Ideal.ofBits .f32 0x7F800000#32 = ⊤ := by simp [Ideal.ofBits, Ideal.ieee]

/-- An extended real whose absolute value is below `+inf` cancels against itself. -/
theorem sub_self_of_abs_lt (a : EReal) (h : Ideal.cmp .olt (max a (-a)) (Ideal.ofBits .f32 0x7F800000#32) = 1#1) :
    a - a = 0 := by
  rw [inf_word] at h
  have h' : max a (-a) < ⊤ := by
    by_contra hn
    simp only [Ideal.cmp, decide_eq_false hn] at h
    exact absurd h (by decide)
  induction a using EReal.rec with
  | bot => simp at h'
  | top => simp at h'
  | coe r => rw [← EReal.coe_sub, sub_self, EReal.coe_zero]

/-- Under the precondition, `x - x = 0` at every entry of the first argument. -/
theorem x_sub_self (x : FVec Ideal S8192x4096 .f32) (w : FVec Ideal S4096x4096 .f32) (b : FVec Ideal S4096 .f32)
    (h : fn (F := Ideal) x w b = fun _ => 1#1) (i : S8192x4096.Idx) : x i - x i = 0 := by
  have h0 := congrFun h ValueIdx.ix0
  dsimp only [fn] at h0
  obtain ⟨h1, -⟩ := IntOp.andi_eq_one.1 h0
  obtain ⟨h2, -⟩ := IntOp.andi_eq_one.1 h1
  have h3 := Host.reduce_andi_all _ _ _ _ _ h2 i
  exact sub_self_of_abs_lt (x i) h3

end Cert.Finite

end
-- ==== Proof.lean ====
/-
  A linear layer with binarised weights followed by a sign, computed two ways, gives the same array.

  For x of shape 8192 x 4096, w of shape 4096 x 4096 and b of length 4096, both programs compute
      out(n, o) = sgn ( sum over k < 4096 of x(n, k) * sgn (w(o, k))  +  b(o) ).
  The reference does it with one product over the whole contraction axis.  The kernel tiles the output into
  1024 x 1024 blocks and walks the contraction axis in four blocks of 1024, keeping a running block; per step it
  adds two products, one with x and one with x - x (the part of x that a narrower number format would lose, which
  is nothing for exact numbers), and after the last step it adds the bias and takes the sign.

  Why the two agree over the extended reals:
    - changing a number's format is the identity, so the kernel's operands are x, x - x and sgn w;
    - x - x = 0 wherever x is finite, and 0 * anything = 0, so the second product adds nothing
      (this is the one place the finiteness of the inputs is used: at an infinity x - x is not 0);
    - addition is commutative and associative, so four partial sums of 1024 terms make the sum of 4096 terms;
    - the kernel writes sgn as "where |z| > 0: -1 if z < 0, else 1; otherwise z", which is the sign function at
      every extended real, the infinities included.
  The three programs also run to completion without touching their arguments, and the kernel's exact-arithmetic
  reading replaces "1.0 carrying z's sign bit" by "-1 if z < 0, else 1" as the idealisation rule states.
-/
import proofs.«140761_j60455959658598_2_alg».proof.Defs
import proofs.«140761_j60455959658598_2_alg».proof.Proof.Gen.Kernel
import proofs.«140761_j60455959658598_2_alg».proof.Proof.Gen.Kernel.Skeleton
import proofs.«140761_j60455959658598_2_alg».proof.Proof.Gen.Kernel.Launch
import proofs.«140761_j60455959658598_2_alg».proof.Proof.Gen.Kernel.Points
import proofs.«140761_j60455959658598_2_alg».proof.Proof.Gen.Kernel.Frame
import proofs.«140761_j60455959658598_2_alg».proof.Proof.Gen.KernelIdeal
import proofs.«140761_j60455959658598_2_alg».proof.Proof.Gen.KernelIdeal.Skeleton
import proofs.«140761_j60455959658598_2_alg».proof.Proof.Gen.KernelIdeal.Launch
import proofs.«140761_j60455959658598_2_alg».proof.Proof.Gen.KernelIdeal.Points
import proofs.«140761_j60455959658598_2_alg».proof.Proof.Gen.KernelIdeal.Frame
import proofs.«140761_j60455959658598_2_alg».proof.Proof.Gen.ReferenceIdeal
import proofs.«140761_j60455959658598_2_alg».proof.Proof.Gen.Pre_finite_inputs
import proofs.«140761_j60455959658598_2_alg».proof.Proof.Gen.KernelIdeal.Value
import proofs.«140761_j60455959658598_2_alg».proof.Proof.Gen.ReferenceIdeal.Run
import proofs.«140761_j60455959658598_2_alg».proof.Proof.Gen.ReferenceIdeal.Read
import proofs.«140761_j60455959658598_2_alg».proof.Proof.Final
import proofs.«140761_j60455959658598_2_alg».proof.Proof.RefSpec
import proofs.«140761_j60455959658598_2_alg».proof.Proof.Finite
import Idealize.ShloMosaic.Adequacy
import Idealize.ShloMosaic.Init

noncomputable section

namespace Cert.Proof

open Idealize.ShloMosaic Idealize.SL.Sem

/-- The kernel as printed runs to completion and leaves its arguments as they were. -/
theorem frame_kernel : Cert.frame_Kernel := fun m ρ _ => Cert.Kernel.Gen.frame m ρ

/-- So does its exact-arithmetic reading. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the exact-arithmetic reading: `1.0` carrying `z`'s sign bit becomes `-1` for `z < 0`, else `1`. -/
theorem preserves : Cert.preserves_Kernel_KernelIdeal :=
  IdealRules.sign_bit.statement Cert.KernelIdeal.S1024x1024 .f32

/-- Both programs end with `sgn (x . (sgn w)^T + b)` of arguments that agree: the kernel because its running block
    sums the contraction axis block by block and its second product vanishes on finite `x`, the reference directly. -/
theorem algebraic : Cert.algebraic_KernelIdeal_ReferenceIdeal := by
  intro m ρ m' ρ' hpre hagree
  have hx : ∀ c i, Cert.KernelIdeal.Blocks.X m c i - Cert.KernelIdeal.Blocks.X m c i = 0 :=
    fun c i => Cert.Finite.x_sub_self _ _ _ (hpre c) i
  refine ⟨fun c => Cert.Spec.G (Cert.KernelIdeal.Blocks.X m c) (Cert.KernelIdeal.Blocks.W m c) (Cert.KernelIdeal.Blocks.B m c),
    Cert.KernelIdeal.Final.run m ρ hx, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.ReferenceIdeal.RefValue.ref_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
